-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  natLt_1_32 : 1 < 32
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .i1⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  transposes_S4096x4096_S4096x4096_1_0 : S4096x4096.Transposes [1, 0] S4096x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spikes.lean ====
/-
  The function both programs compute, written once over extended reals.

  An entry (b, o) of the result depends on one row of each argument only: row b of x and row o of W.
  With xr the row of x and wr the row of W (4096 entries each),
    * the row's length is  √(Σ_j xr_j²) + ε                       (ε the f32 nearest to 1e-4),
    * the membrane charge is  Σ_k (xr_k / length) · wr_k,
    * the neuron fires, value 1, when  charge − 1 ≥ 0, and is silent, value 0, otherwise.
  Sums are finite sums in the commutative monoid of extended reals, so neither their order nor any tiling
  of the index range matters; no other algebraic law is used, and in particular nothing here needs the
  entries to be finite.
-/
import Idealize.ShloMosaic.PureOps.Ideal
import Idealize.ShloMosaic.PureOps.Ideal.Laws
import Idealize.ShloMosaic.Lib.ValueIdx

noncomputable section

namespace Cert.NormSpike

open Idealize.ShloMosaic Idealize.ShloMosaic.ValueIdx

/-- The Euclidean length of a row, plus ε. -/
def rowLen (xr : Fin 4096 → EReal) : EReal :=
  Ideal.sqrt (∑ j : Fin 4096, xr j * xr j) + Ideal.ofBits .f32 0x38D1B717#32

/-- The charge a normalized row of x deposits through a row of W. -/
def charge (xr wr : Fin 4096 → EReal) : EReal :=
  ∑ k : Fin 4096, Ideal.div (xr k) (rowLen xr) * wr k

/-- The spike: 1 when the charge reaches the threshold 1, else 0. -/
def fire (xr wr : Fin 4096 → EReal) : EReal :=
  (((Ideal.cmp .oge (charge xr wr - Ideal.ofBits .f32 0x3F800000#32) (Ideal.ofBits .f32 0x00000000#32)).toNat : ℝ) : EReal)

/-- The whole result: entry (b, o) is the spike of row b of x against row o of W. -/
def spikes (x : (⟨2, ![8192, 4096]⟩ : Shape).Idx → EReal) (w : (⟨2, ![4096, 4096]⟩ : Shape).Idx → EReal) :
    (⟨2, ![8192, 4096]⟩ : Shape).Idx → EReal :=
  fun i => fire (fun k => x (ix2 (i 0) k)) (fun k => w (ix2 (i 1) k))

/-- A one-bit answer widened with zeros to 32 bits and then read as a SIGNED integer is the bit itself:
    the widened word is 0 or 1, far below the sign bit. So converting the comparison's bit to a float through
    a 32-bit integer, or directly as an unsigned bit, gives the same 0 or 1. -/
theorem widen_bit (b : BitVec 1) : ((((b.setWidth 32).toInt : ℤ) : ℝ) : EReal) = (((b.toNat : ℕ) : ℝ) : EReal) := by
  have h : (b.setWidth 32).toInt = (b.toNat : ℤ) := by revert b; decide
  rw [h, Int.cast_natCast]

end Cert.NormSpike

end
-- ==== Proof.LibKeepdims.lean ====
/-
  Two layout reads that every row reduction with kept dimensions meets, at any sizes:
  a vector of length a viewed as an a × 1 column, and an a × 1 column repeated along rows of length b.
  Both only rename entries: the column's entry (p, 0) is the vector's entry p, and the broadcast's entry (p, k) is
  the column's entry (p, 0), whatever k.
-/
import Idealize.ShloMosaic.Lib.Pipeline.Value
import Idealize.ShloMosaic.Lib.ValueIdx

noncomputable section

namespace Cert.Lib.Keepdims

open Idealize.ShloMosaic Idealize.ShloMosaic.ValueIdx

variable {α : Type}

/-- A length-`a` vector reshaped to an `a × 1` column: entry (p, 0) of the column is entry p of the vector
    (both sit at row-major position p). -/
theorem shapeCast_column_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- An `a × 1` column broadcast along rows of length `b`: entry (p, k) of the result is entry (p, 0) of the
    column (when a = 1 the only row is row 0, so the rule "a unit axis reads 0" and the rule "a kept axis reads
    its own coordinate" agree). -/
theorem broadcastTo_column_apply {a b : Nat} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun c => ?_
  match c with
  | ⟨0, _⟩ =>
    show p.val = if a = 1 then 0 else p.val
    split
    · have := p.isLt; omega
    · rfl
  | ⟨1, _⟩ => show 0 = if (1 : Nat) = 1 then 0 else k.val; rw [if_pos rfl]

end Cert.Lib.Keepdims

end
-- ==== Proof.BodySpikes.lean ====
/-
  What the kernel body stores, entry by entry.

  At one grid point the body holds a 512-row block of x and a 1024-row block of W (already rounded to bf16,
  which changes nothing over the extended reals). Entry (p, q) of the 512 × 1024 tile it stores is: the
  comparison bit of (Σ_k (x[p, k] / (√(Σ_j x[p, j]²) + ε)) · W[q, k]) − 1 ≥ 0, widened to 32 bits and converted as a
  signed integer. The lane reduction is the sum over the row; the matrix unit's product into a zero accumulator
  is the contraction over the shared axis; the keep-dims reshape and the broadcast along the row only carry
  the row's length to every entry of the row. So the entry is `fire` of row p of the x block and row q of the W
  block.
-/
import proofs.«166367_j46514495815876_1_alg».proof.Proof.Gen.KernelIdeal.Skeleton
import proofs.«166367_j46514495815876_1_alg».proof.Proof.Spikes
import proofs.«166367_j46514495815876_1_alg».proof.Proof.LibKeepdims
import Idealize.ShloMosaic.Lib.Pipeline.Value
import Idealize.ShloMosaic.Lib.ValueIdx
import Idealize.ShloMosaic.PureOps.Ideal.Laws

noncomputable section

namespace Cert.NormSpike.Body

open Cert.KernelIdeal Cert.KernelIdeal.Gen Idealize.ShloMosaic Idealize.ShloMosaic.ValueIdx Cert.NormSpike

/-- The sum of squares along row `p` of the block, as the lane reduction computes it. -/
theorem rowSquares_at (x0 : FVec Ideal S512x4096 .f32) (h : S512x4096.Reduces [1] S512) (hφ : FKind.Formats .f32)
    (hacc : (0x00000000#32 : BitVec 32) = FKind.add.neutral .f32 hφ) (p : Fin 512) :
    multiReduction .add [1] S512 (mulf x0 x0) 0x00000000#32 h hφ hacc (ix1 p) = ∑ j : Fin 4096, x0 (ix2 p j) * x0 (ix2 p j) := by
  refine (Ideal.multiReduction_add_single (mulf x0 x0) 0x00000000#32 h hφ hacc (ix1 p)).trans ?_
  refine Finset.sum_congr rfl fun j _ => ?_
  -- the index over row p whose coordinate on the reduced axis is j is (p, j)
  have e : h.lift (ix1 p) j = ix2 p j := funext fun a => Fin.ext (by match a with | ⟨0, _⟩ => rfl | ⟨1, _⟩ => rfl)
  exact congrArg (fun z => x0 z * x0 z) e

/-- The row's length plus ε, reshaped to a column and broadcast along the row, read at any entry of row `p`. -/
theorem rowLen_at (x0 : FVec Ideal S512x4096 .f32) (h : S512x4096.Reduces [1] S512) (hφ : FKind.Formats .f32)
    (hacc : (0x00000000#32 : BitVec 32) = FKind.add.neutral .f32 hφ) (hc : S512.ShapeCasts S512x1) (hb : S512x1.Broadcasts S512x4096)
    (p : Fin 512) (k : Fin 4096) :
    broadcastTo S512x4096 (addf (sqrt (shapeCast S512x1 (multiReduction .add [1] S512 (mulf x0 x0) 0x00000000#32 h hφ hacc) hc))
        (broadcast S512x1 (Scalar.ofBits (F := Ideal) .f32 0x38D1B717#32))) hb (ix2 p k)
      = rowLen (fun j => x0 (ix2 p j)) := by
  -- along row p the broadcast repeats the column's entry (p, 0) …
  refine (Cert.Lib.Keepdims.broadcastTo_column_apply _ hb p k).trans ?_
  show Ideal.sqrt (shapeCast S512x1 (multiReduction .add [1] S512 (mulf x0 x0) 0x00000000#32 h hφ hacc) hc (ix2 p (0 : Fin 1)))
      + Ideal.ofBits .f32 0x38D1B717#32 = _
  unfold rowLen
  refine congrArg (fun z => Ideal.sqrt z + Ideal.ofBits .f32 0x38D1B717#32) ?_
  -- … which is entry p of the vector of row sums
  exact (Cert.Lib.Keepdims.shapeCast_column_apply _ hc p).trans (rowSquares_at x0 h hφ hacc p)

/-- The left operand's free axis follows the result's row. -/
theorem lhs_free (i : S512x1024.Idx) (r : dot_S512x4096_S1024x4096_S512x1024_1_1_0_0_n_n.contr.Idx) :
    (dot_S512x4096_S1024x4096_S512x1024_1_1_0_0_n_n.lhsIdx i r 0).val = (i 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl

/-- The right operand's free axis follows the result's column. -/
theorem rhs_free (i : S512x1024.Idx) (r : dot_S512x4096_S1024x4096_S512x1024_1_1_0_0_n_n.contr.Idx) :
    (dot_S512x4096_S1024x4096_S512x1024_1_1_0_0_n_n.rhsIdx i r 0).val = (i 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl

/-- The matrix unit's product into a zero accumulator, at entry (p, q): the contraction of row `p` of the left
    operand with row `q` of the right one over their shared 4096-long axis. -/
theorem contraction_at (a : FVec Ideal S512x4096 .bf16) (b : FVec Ideal S1024x4096 .bf16) (p : Fin 512) (q : Fin 1024) :
    matmul dot_S512x4096_S1024x4096_S512x1024_1_1_0_0_n_n none a b (constant (F := Ideal) S512x1024 .f32 0x00000000#32) (ix2 p q)
      = ∑ k : Fin 4096, a (ix2 p k) * b (ix2 q k) := by
  refine (Ideal.matmul_constant_zero_apply dot_S512x4096_S1024x4096_S512x1024_1_1_0_0_n_n none a b (ix2 p q)).trans ?_
  rw [← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  -- the left operand is read at (p, k), the right one at (q, k): the contracted axis of each follows the summation index
  have el : dot_S512x4096_S1024x4096_S512x1024_1_1_0_0_n_n.lhsIdx (ix2 p q)
      ((contrEquiv1 dot_S512x4096_S1024x4096_S512x1024_1_1_0_0_n_n 4096 rfl rfl).symm k) = ix2 p k :=
    funext fun c => Fin.ext (by
      match c with
      | ⟨0, _⟩ => exact lhs_free _ _
      | ⟨1, _⟩ => exact (dot_S512x4096_S1024x4096_S512x1024_1_1_0_0_n_n.lhsIdx_val_of_single rfl _ _).trans hk)
  have er : dot_S512x4096_S1024x4096_S512x1024_1_1_0_0_n_n.rhsIdx (ix2 p q)
      ((contrEquiv1 dot_S512x4096_S1024x4096_S512x1024_1_1_0_0_n_n 4096 rfl rfl).symm k) = ix2 q k :=
    funext fun c => Fin.ext (by
      match c with
      | ⟨0, _⟩ => exact rhs_free _ _
      | ⟨1, _⟩ => exact (dot_S512x4096_S1024x4096_S512x1024_1_1_0_0_n_n.rhsIdx_val_of_single rfl _ _).trans hk)
  rw [el, er]

/-- Entry (p, q) of the tile the body stores is the spike of row `p` of its x block against row `q` of its W block. -/
theorem stored_at (x0 : FVec Ideal S512x4096 .f32) (x1 : FVec Ideal S1024x4096 .bf16) (p : Fin 512) (q : Fin 1024) :
    k0_pay1 (F := Ideal) x0 x1 (ix2 p q) = fire (fun k => x0 (ix2 p k)) (fun k => x1 (ix2 q k)) := by
  unfold k0_pay1
  -- the bit, widened and converted as a signed integer, is the bit
  refine (widen_bit _).trans ?_
  unfold fire
  refine congrArg (fun b : BitVec 1 => (((b.toNat : ℕ) : ℝ) : EReal)) ?_
  -- the comparison is entrywise, against the same two constants
  refine congrArg (fun z : EReal => Ideal.cmp .oge (z - Ideal.ofBits .f32 0x3F800000#32) (Ideal.ofBits .f32 0x00000000#32)) ?_
  -- the charge: the contraction, term by term
  refine (contraction_at _ _ p q).trans ?_
  unfold charge
  refine Finset.sum_congr rfl fun k _ => ?_
  refine congrArg₂ (fun u v : EReal => u * v) ?_ ?_
  · -- rounding to bf16 is the identity; the quotient is entrywise, by the row's length carried along the row
    exact congrArg (Ideal.div (x0 (ix2 p k))) (rowLen_at x0 _ _ _ _ _ p k)
  · -- a reshape to the same shape moves nothing
    exact congrFun (shapeCast_self x1 _) (ix2 q k)

/-- The same at an arbitrary entry of the tile, its two coordinates read off the index. -/
theorem stored_apply (x0 : FVec Ideal S512x4096 .f32) (x1 : FVec Ideal S1024x4096 .bf16) (j : S512x1024.Idx) :
    k0_pay1 (F := Ideal) x0 x1 j = fire (fun k => x0 (ix2 (j 0) k)) (fun k => x1 (ix2 (j 1) k)) := by
  obtain ⟨p, q, rfl⟩ : ∃ (p : Fin 512) (q : Fin 1024), j = ix2 p q := ⟨j 0, j 1, eq_ix2 j⟩
  exact stored_at x0 x1 p q

end Cert.NormSpike.Body

end
-- ==== Proof.ArraySpikes.lean ====
/-
  From tiles to the whole array.

  The grid has 16 × 4 points. At point t = (r, s) the kernel sees rows 512·r … 512·r + 511 of x (all columns) and
  rows 1024·s … 1024·s + 1023 of W (all columns; W was rounded to bf16 before the launch, which over the extended
  reals is W itself), and writes the 512 × 1024 tile at rows 512·r …, columns 1024·s … of the result. Entry (p, q) of
  that tile is the spike of row p of the x block against row q of the W block (the body, entry by entry), that is
  of row 512·r + p of x against row 1024·s + q of W — which is `spikes x W` at the entry's own position
  (512·r + p, 1024·s + q). So every point writes back a tile of the one function `spikes x W`; the 64 tiles cover
  8192 × 4096; hence the result array ends as `spikes x W`.
-/
import proofs.«166367_j46514495815876_1_alg».proof.Proof.Gen.KernelIdeal.Value
import proofs.«166367_j46514495815876_1_alg».proof.Proof.BodySpikes
import Idealize.ShloMosaic.Lib.StableHlo.Run

set_option maxRecDepth 16384

noncomputable section

namespace Cert.NormSpike.Array

open Cert.KernelIdeal Cert.KernelIdeal.Gen Idealize.ShloMosaic Idealize.ShloMosaic.TcCoe Idealize.SL.Sem
open Idealize.ShloMosaic.Pipeline (Dat)
open Idealize.ShloMosaic.ValueIdx Cert.NormSpike

variable (m : (ℓ : Loc nD τ sig) → Buf (Elt Ideal) ℓ) (ρ : Dev nD → PrngReg)

theorem origin : (![0, 0] : Fin 2 → Nat) = fun _ => 0 := funext fun a => by fin_cases a <;> rfl

/-- Where the three windows sit at each of the 64 points: the x block and the result tile share their row-block
    index, the W block's row-block index is the result tile's column-block index, and both input blocks span all
    columns. -/
theorem placement : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 3 :=
  (by decide +kernel : ∀ t : Fin grid0.N, _)

/-- Every (row-block, column-block) pair is some point's result tile. -/
theorem every_tile : ∀ (r : Fin 16) (s : Fin 4), ∃ t : Fin cfg0.N, win0_2.index t = ![r.val, s.val] :=
  (by decide +kernel : ∀ (r : Fin 16) (s : Fin 4), ∃ t : Fin grid0.N, win0_2.index t = ![r.val, s.val])

/-- The weights the region finds: the host's rounding of W to bf16, which over the extended reals is W. -/
theorem weights (c : Dev nD) :
    (V m c main_v0 : S4096x4096.Idx → EReal) = m ((c : Thread nD τ).loc main_arg1) := by
  dsimp only [Gen.V, Gen.hostOps0]; after_results; rfl

/-- Row `p` of the x block at point `t` is row 512·r + p of x, r the row-block index of the point's result tile. -/
theorem x_block_row (c : Dev nD) (t : Fin cfg0.N) (p : Fin 512) (k : Fin 4096) (b : Fin 8192)
    (hb : b.val = win0_2.index t (0 : Fin 2) * 512 + p.val) :
    iblk m c 0 t (ix2 p k) = m ((c : Thread nD τ).loc main_arg0) (ix2 b k) := by
  show V m c main_arg0 (((cfg0.win 0).blk t).view.emb (ix2 p k)) = _
  rw [V_main_arg0]
  obtain ⟨e0, e1, -⟩ := placement t
  refine congrArg _ (funext fun a => Fin.ext ?_)
  match a with
  | ⟨0, _⟩ => show win0_0.index t (0 : Fin 2) * 512 + 1 * p.val = b.val; omega
  | ⟨1, _⟩ => show win0_0.index t (1 : Fin 2) * 4096 + 1 * k.val = k.val; omega

/-- Row `q` of the W block at point `t` is row 1024·s + q of W, s the column-block index of the point's result tile. -/
theorem w_block_row (c : Dev nD) (t : Fin cfg0.N) (q : Fin 1024) (k : Fin 4096) (o : Fin 4096)
    (ho : o.val = win0_2.index t (1 : Fin 2) * 1024 + q.val) :
    iblk m c 1 t (ix2 q k) = m ((c : Thread nD τ).loc main_arg1) (ix2 o k) := by
  show (V m c main_v0 : S4096x4096.Idx → EReal) (((cfg0.win 1).blk t).view.emb (ix2 q k)) = _
  rw [weights]
  obtain ⟨-, -, e2, e3, -⟩ := placement t
  refine congrArg _ (funext fun a => Fin.ext ?_)
  match a with
  | ⟨0, _⟩ => show win0_1.index t (0 : Fin 2) * 1024 + 1 * q.val = o.val; omega
  | ⟨1, _⟩ => show win0_1.index t (1 : Fin 2) * 4096 + 1 * k.val = k.val; omega

/-- What point `t` writes back is its tile of `spikes x W`. -/
theorem tile_eq (c : Dev nD) (t : Fin cfg0.N) :
    (dats m 0 c).flushed 2 t = ((cfg0.win 2).blk t).view.read (Elt Ideal)
      (spikes (m ((c : Thread nD τ).loc main_arg0)) (m ((c : Thread nD τ).loc main_arg1))) := by
  rw [Value.flushed2]
  unfold Gen.out0_2
  rw [View.canon_unit_zero origin]
  simp only [View.ld_unit_zero (S := S512x4096) origin, View.ld_unit_zero (S := S1024x4096) origin]
  funext j
  show k0_pay1 (iblk m c 0 t) (iblk m c 1 t) j
    = spikes (m ((c : Thread nD τ).loc main_arg0)) (m ((c : Thread nD τ).loc main_arg1)) (((cfg0.win 2).blk t).view.emb j)
  refine (Body.stored_apply (iblk m c 0 t) (iblk m c 1 t) j).trans ?_
  unfold spikes
  -- the entry's own position: tile offset plus the coordinate inside the tile, on each axis
  have h0 : ((((cfg0.win 2).blk t).view.emb j) 0).val = win0_2.index t (0 : Fin 2) * 512 + (j 0).val := by
    show win0_2.index t (0 : Fin 2) * 512 + 1 * (j 0).val = _; omega
  have h1 : ((((cfg0.win 2).blk t).view.emb j) 1).val = win0_2.index t (1 : Fin 2) * 1024 + (j 1).val := by
    show win0_2.index t (1 : Fin 2) * 1024 + 1 * (j 1).val = _; omega
  refine congrArg₂ fire (funext fun k => ?_) (funext fun k => ?_)
  · exact x_block_row m c t (j 0) k _ h0
  · exact w_block_row m c t (j 1) k _ h1

/-- An entry lies in point `t`'s result tile iff each coordinate lies in the tile's range on its axis. -/
theorem mem_tile (t : Fin cfg0.N) (i : S8192x4096.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every entry of the result lies in some point's tile: entry (b, o) in the tile of row-block b / 512 and
    column-block o / 1024. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_tile ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The result array after the run is `spikes x W`. -/
theorem result_array (c : Dev nD) :
    (dats m 0 c).arrAt 2 cfg0.N = spikes (m ((c : Thread nD τ).loc main_arg0)) (m ((c : Thread nD τ).loc main_arg1)) :=
  (dats m 0 c).arrAt_eq_of_cover 2 _ (fun t _ => tile_eq m c t) covered

/-- The kernel's run: every weakly fair execution terminates with the result at `spikes x W` of the arguments as
    launched, and the arguments unchanged. -/
theorem run : θ_run defs (onTc (τ := τ) (main (F := Ideal))) ⟨m, fun _ => 0, ρ⟩ fun r => ∀ c : Dev nD,
      r.2.mem ((c : Thread nD τ).loc main_v1)
        = spikes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.NormSpike.Array

end
-- ==== Proof.ReferenceSpikes.lean ====
/-
  The reference computes `spikes`.

  Read one operation at a time, the reference's entry (b, o) is: the comparison bit, as an unsigned 0/1, of
  (Σ_k q_k · Wᵀ[k, o]) − 1 ≥ 0, where q_k = x[b, k] / (√(0 + Σ_j x[b, j]²) + ε). The transpose only renames the
  entry W[o, k]; the broadcasts only repeat the row's length along the row; the leading 0 of the host sum is the
  additive unit. What is left is `fire` of row b of x and row o of W, term for term.
-/
import proofs.«166367_j46514495815876_1_alg».proof.Proof.Gen.ReferenceIdeal.Read
import proofs.«166367_j46514495815876_1_alg».proof.Proof.Spikes

noncomputable section

namespace Cert.NormSpike.Reference

open Cert.ReferenceIdeal Cert.ReferenceIdeal.Read Idealize.ShloMosaic Idealize.ShloMosaic.ValueIdx Cert.NormSpike

/-- The divisor at entry `i`: the length of row (i 0) of x plus ε, whatever the column. -/
theorem divisor_at (x0 : S8192x4096.Idx → EReal) (i : S8192x4096.Idx) :
    val_main_v3 (F := Ideal) x0 i = rowLen (fun j => x0 (ix2 (i 0) j)) := by
  rw [val_main_v3_apply, val_main_v2_apply, val_main_v0_apply, val_main_call0_v2_apply, val_main_call0_v1_apply,
    val_main_v1_apply, val_main_cst_apply, val_main_call0_cst_apply]
  unfold rowLen
  show Ideal.sqrt (Ideal.ofBits .f32 0x00000000#32 + ∑ k : Fin 4096, _) + Ideal.ofBits .f32 0x38D1B717#32 = _
  rw [Ideal.ofBits_zero_f32, zero_add]
  refine congrArg (fun z => Ideal.sqrt z + Ideal.ofBits .f32 0x38D1B717#32) (Finset.sum_congr rfl fun k _ => ?_)
  -- the k-th summand of the host sum over row (i 0) is the square of x at (i 0, k)
  have e : idx_main_call0_v1 (idx_main_call0_v2 (idx_main_v3 i)) k = ix2 (i 0) k :=
    funext fun a => Fin.ext (by match a with | ⟨0, _⟩ => rfl | ⟨1, _⟩ => rfl)
  rw [val_main_call0_v0_apply, e]
  rfl

/-- The reference's result, as a function of the two argument arrays, is `spikes`. -/
theorem eq_spikes (x0 : S8192x4096.Idx → EReal) (x1 : S4096x4096.Idx → EReal) :
    val_main_v11 (F := Ideal) x0 x1 = spikes x0 x1 := by
  funext i
  rw [val_main_v11_apply, val_main_v10_apply, val_main_v8_apply, val_main_v6_apply, val_main_v9_apply,
    val_main_cst_1_apply, val_main_v7_apply, val_main_cst_0_apply]
  show (((Ideal.cmp .oge ((∑ k : Fin 4096, _) - Ideal.ofBits .f32 0x3F800000#32) (Ideal.ofBits .f32 0x00000000#32)).toNat : ℝ) : EReal) = _
  unfold spikes fire charge
  refine congrArg (fun z : EReal => (((Ideal.cmp .oge (z - Ideal.ofBits .f32 0x3F800000#32) (Ideal.ofBits .f32 0x00000000#32)).toNat : ℝ) : EReal))
    (Finset.sum_congr rfl fun k _ => ?_)
  -- the contraction's left operand is read along row (i 0) of x, its right one, through the transpose, along row (i 1) of W
  have e1 : lidx_main_v6 i k = ix2 (i 0) k :=
    funext fun a => Fin.ext (by match a with | ⟨0, _⟩ => rfl | ⟨1, _⟩ => rfl)
  have e2 : idx_main_v5 (ridx_main_v6 i k) = ix2 (i 1) k :=
    funext fun a => Fin.ext (by match a with | ⟨0, _⟩ => rfl | ⟨1, _⟩ => rfl)
  rw [val_main_v4_apply, val_main_v5_apply, divisor_at, e1, e2]
  rfl

end Cert.NormSpike.Reference

end
-- ==== Proof.lean ====
/-
  A spiking layer: each row of x is divided by its Euclidean length plus ε, multiplied by Wᵀ, and an
  integrate-and-fire neuron answers 1 where the charge reaches the threshold 1 and 0 elsewhere.

  The kernel tiles the 8192 × 4096 result into 16 × 4 tiles of 512 × 1024; for a tile it holds 512 whole rows
  of x and 1024 whole rows of W (rounded to bf16 on the way in), normalizes the rows of x, contracts them with the
  rows of W on the matrix unit, subtracts 1, compares with 0 and converts the bit to a float. The reference does
  the same on whole arrays: the norm, the quotient, one product with the transposed W, the comparison.

  Over the extended reals the two are the same function, entry by entry (`Cert.NormSpike.spikes`): an entry
  depends on one row of x and one row of W; rounding is the identity; the lane reduction, the host sum, the
  matrix unit's product and the host's product are finite sums over the same 4096 terms; the transpose renames
  the entries of W; the two conversions of the comparison bit agree because a bit widened with zeros is not
  negative. No rearrangement of an infinite quantity is involved, so the precondition that the inputs be finite
  is not opened. The idealization rewrote no operation of the kernel, so there is nothing to preserve beyond
  the program's own text.

  The three frames: the two kernel programs by their generated frame certificates, the reference by its generated
  run with the result dropped.
-/
import proofs.«166367_j46514495815876_1_alg».proof.Defs
import proofs.«166367_j46514495815876_1_alg».proof.Proof.Gen.Kernel
import proofs.«166367_j46514495815876_1_alg».proof.Proof.Gen.Kernel.Frame
import proofs.«166367_j46514495815876_1_alg».proof.Proof.Gen.KernelIdeal
import proofs.«166367_j46514495815876_1_alg».proof.Proof.Gen.KernelIdeal.Frame
import proofs.«166367_j46514495815876_1_alg».proof.Proof.Gen.ReferenceIdeal
import proofs.«166367_j46514495815876_1_alg».proof.Proof.Gen.Pre_finite_inputs
import proofs.«166367_j46514495815876_1_alg».proof.Proof.Gen.KernelIdeal.Value
import proofs.«166367_j46514495815876_1_alg».proof.Proof.Gen.ReferenceIdeal.Run
import proofs.«166367_j46514495815876_1_alg».proof.Proof.Gen.ReferenceIdeal.Read
import proofs.«166367_j46514495815876_1_alg».proof.Proof.ArraySpikes
import proofs.«166367_j46514495815876_1_alg».proof.Proof.ReferenceSpikes

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments alone: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on x and W both programs end with the result at `spikes x W`: the kernel by its tiles
    (`Cert.NormSpike.Array.run`), the reference operation by operation (`Cert.NormSpike.Reference.eq_spikes`). -/
theorem algebraic : Cert.algebraic_KernelIdeal_ReferenceIdeal := by
  intro m ρ m' ρ' _ hagree
  refine ⟨_, Cert.NormSpike.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.NormSpike.Reference.eq_spikes _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
